-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x64 : Shape := ⟨2, ![800000, 64]⟩
abbrev S800000 : Shape := ⟨1, ![800000]⟩
abbrev S64x128 : Shape := ⟨2, ![64, 128]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x128 : S_.BroadcastsInDim S64x128 (![] : Fin 0 → Fin S64x128.rank)
  reducesTo_S64x128_S_d0_1 : S64x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_arg7 : FVec F S128x128 .f32) (main_arg8 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : FVec F S800000x64 .f32) (main_arg2 : IVec S800000 32) (main_arg3 : IVec S800000 32) (main_arg4 : FVec F S64x128 .f32) (main_arg5 : FVec F S256x128 .f32) (main_arg6 : FVec F S128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_v13 main_v16
-- ==== Kernel.lean ====
abbrev S50000x128 : Shape := ⟨2, ![50000, 128]⟩
abbrev S800000x64 : Shape := ⟨2, ![800000, 64]⟩
abbrev S800000 : Shape := ⟨1, ![800000]⟩
abbrev S64x128 : Shape := ⟨2, ![64, 128]⟩
abbrev S256x128 : Shape := ⟨2, ![256, 128]⟩
abbrev S128 : Shape := ⟨1, ![128]⟩
abbrev S128x128 : Shape := ⟨2, ![128, 128]⟩
abbrev S2000x128 : Shape := ⟨2, ![2000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S8000x128 : Shape := ⟨2, ![8000, 128]⟩
abbrev S8000x64 : Shape := ⟨2, ![8000, 64]⟩
abbrev S50000x1 : Shape := ⟨2, ![50000, 1]⟩
abbrev S5000x128 : Shape := ⟨2, ![5000, 128]⟩
abbrev S5000x1 : Shape := ⟨2, ![5000, 1]⟩

abbrev nBuf : Space → Nat
  | .hbm => 36
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S64x128, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S64x128, .f32⟩
  | .hbm, ⟨12, _⟩ => ⟨S50000x128, .bf16⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .bf16⟩
  | .hbm, ⟨22, _⟩ => ⟨S1x128, .f32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000x1, .f32⟩
  | .hbm, ⟨30, _⟩ => ⟨S_, .f32⟩
  | .hbm, ⟨31, _⟩ => ⟨S50000x1, .f32⟩
  | .hbm, ⟨32, _⟩ => ⟨S800000x1, .i32⟩
  | .hbm, ⟨33, _⟩ => ⟨S50000x1, .f32⟩
  | .hbm, ⟨34, _⟩ => ⟨S1x128, .f32⟩
  | .hbm, ⟨35, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S8000x128, .bf16⟩
  | .local _ .vmem, ⟨6, _⟩ => ⟨S8000x128, .bf16⟩
  | .local _ .vmem, ⟨7, _⟩ => ⟨S8000x64, .f32⟩
  | .local _ .vmem, ⟨8, _⟩ => ⟨S8000x64, .f32⟩
  | .local _ .vmem, ⟨9, _⟩ => ⟨S64x128, .f32⟩
  | .local _ .vmem, ⟨10, _⟩ => ⟨S1x128, .f32⟩
  | .local _ .vmem, ⟨11, _⟩ => ⟨S8000x128, .f32⟩
  | .local _ .vmem, ⟨12, _⟩ => ⟨S8000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S128x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S2000x128_S2000x128_0_0 : (Rect.unit (s := S2000x128) ![0, 0] S2000x128.size inb_S2000x128_S2000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x64_S8000x64_0_0 : ∀ a, (![0, 0] : Fin 2 → Nat) a + S8000x64.size a ≤ S8000x64.size a
  h_S8000x64 : 0 < S8000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  broadcasts_S1x128_S5000x128 : S1x128.Broadcasts S5000x128
  dot_S64x128_S128x128_S64x128_1_0_0_1_n_n_wf : DotDims.WF S64x128 S128x128 S64x128 [1] [0] [0] [1] [] []
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  dot_S8000x64_S64x128_S8000x128_1_0_0_1_n_n_wf : DotDims.WF S8000x64 S64x128 S8000x128 [1] [0] [0] [1] [] []
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .bf16 = 32 ∨ (Rect.block (s := S50000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .bf16 = 32 ∨ (Rect.block (s := S800000x128) S8000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S800000x64.size a
  hwx1_1 : ∀ i : grid1.Coords, EltTy.bits .f32 = 32 ∨ (Rect.block (s := S800000x64) S8000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x128.size a ≤ S800000x128.size a
  hwx1_4 : ∀ i : grid1.Coords, EltTy.bits .f32 = 32 ∨ (Rect.block (s := S800000x128) S8000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S8000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x64 : Shape := ⟨2, ![800000, 64]⟩
abbrev S800000 : Shape := ⟨1, ![800000]⟩
abbrev S64x128 : Shape := ⟨2, ![64, 128]⟩
abbrev S256x128 : Shape := ⟨2, ![256, 128]⟩
abbrev S128 : Shape := ⟨1, ![128]⟩
abbrev S128x128 : Shape := ⟨2, ![128, 128]⟩
abbrev S800000x128 : Shape := ⟨2, ![800000, 128]⟩
abbrev S_ : Shape := ⟨0, ![]⟩
abbrev S800000x1 : Shape := ⟨2, ![800000, 1]⟩
abbrev S1x128 : Shape := ⟨2, ![1, 128]⟩
abbrev S50000x1 : Shape := ⟨2, ![50000, 1]⟩

abbrev nBuf : Space → Nat
  | .hbm => 50
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S64x128, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S800000x128, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S128x128, .f32⟩
  | .hbm, ⟨20, _⟩ => ⟨S800000x128, .f32⟩
  | .hbm, ⟨21, _⟩ => ⟨S128x128, .f32⟩
  | .hbm, ⟨22, _⟩ => ⟨S800000x128, .f32⟩
  | .hbm, ⟨23, _⟩ => ⟨S800000x128, .f32⟩
  | .hbm, ⟨24, _⟩ => ⟨S1x128, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S800000x128, .f32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S_, .f32⟩
  | .hbm, ⟨35, _⟩ => ⟨S800000x1, .f32⟩
  | .hbm, ⟨36, _⟩ => ⟨S_, .f32⟩
  | .hbm, ⟨37, _⟩ => ⟨S50000x1, .f32⟩
  | .hbm, ⟨38, _⟩ => ⟨S800000x1, .i32⟩
  | .hbm, ⟨39, _⟩ => ⟨S50000x1, .f32⟩
  | .hbm, ⟨40, _⟩ => ⟨S_, .f32⟩
  | .hbm, ⟨41, _⟩ => ⟨S50000x1, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_cst : Ref sig .tc := ⟨.hbm, 27, rfl⟩
abbrev main_call0_v0 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S256x128_S128x128_0_0 : S256x128.Slices ![0, 0] S128x128
  slices_S256x128_S128x128_128_0 : S256x128.Slices ![128, 0] S128x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  dot_S800000x64_S64x128_S800000x128_1_0_0_1_n_n_wf : DotDims.WF S800000x64 S64x128 S800000x128 [1] [0] [0] [1] [] []
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []

variable [Facts₀]

def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibContractPlain.lean ====
/-
  A plain matrix product — the columns of an `A × K` left operand contracted with the rows of a `K × B` right
  operand — read at an entry, generic in the sizes and in the precision attribute.

  The product's entry `(i, j)` is the sum over the contracted coordinate `k` of `l (i, k) · r (k, j)`. Over the
  extended reals this holds of the kernel's matrix product accumulated into a zero constant
  (`matmulPlain_zero_apply`) and of the host's `dot_general` with these dimension numbers (`dotPlain_apply`),
  whatever the operands' float formats and the requested precision: at the ideal values no rounding is left in
  either, and the accumulator `0` is the neutral element.
-/
import Idealize.ShloMosaic.Lib.ValueIdx
import Idealize.ShloMosaic.PureOps.Ideal.Laws

noncomputable section

open scoped BigOperators

namespace Cert.LibContractPlain

open Idealize.ShloMosaic Idealize.ShloMosaic.ValueIdx

/-- The dimension numbers of the plain product of an `A × K` by a `K × B` matrix: axis 1 of the left operand
    contracted with axis 0 of the right one, no batch axes. -/
abbrev plainDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- The sum over the contraction index of these dimension numbers, at the entry `(i, j)`, is the sum over the
    shared coordinate `k` of the left operand at `(i, k)` times the right operand at `(k, j)`. -/
theorem contraction_eq {α : Type} [AddCommMonoid α] [Mul α] (A K B : Nat)
    (wf : DotDims.WF ⟨2, ![A, K]⟩ ⟨2, ![K, B]⟩ ⟨2, ![A, B]⟩ [1] [0] [0] [1] [] [])
    (l : (⟨2, ![A, K]⟩ : Shape).Idx → α) (r : (⟨2, ![K, B]⟩ : Shape).Idx → α) (i : Fin A) (j : Fin B) :
    ∑ q : (plainDims A K B wf).contr.Idx,
        l ((plainDims A K B wf).lhsIdx (ix2 i j) q) * r ((plainDims A K B wf).rhsIdx (ix2 i j) q)
      = ∑ k : Fin K, l (ix2 i k) * r (ix2 k j) := by
  rw [← Equiv.sum_comp (contrEquiv1 (plainDims A K B wf) K rfl rfl).symm]
  refine Finset.sum_congr rfl fun c _ => ?_
  have c2 := contrEquiv1_symm_val (plainDims A K B wf) K rfl rfl c
  have l2 : (plainDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (plainDims A K B wf).rhsIdx (ix2 i j) ((contrEquiv1 _ K rfl rfl).symm c) = ix2 c j := by
    funext ax; apply Fin.ext
    match ax with
    | ⟨0, _⟩ => simp [DotDims.rhsIdx]; exact c2
    | ⟨1, _⟩ => simp [DotDims.rhsIdx]; rfl
  rw [l2, r2]

/-- THE HOST'S PLAIN PRODUCT read at `(i, j)`, over the extended reals. -/
theorem dotPlain_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    Host.dotGeneral (plainDims A K B wf) prec l r (ix2 i j) = ∑ k : Fin K, l (ix2 i k) * r (ix2 k j) := by
  show FloatOps.dotGeneral _ prec _ l r (ix2 i j) = _
  rw [Ideal.dotGeneral_apply]
  exact contraction_eq A K B wf l r i j

/-- THE KERNEL'S PLAIN PRODUCT INTO A ZERO ACCUMULATOR read at `(i, j)`, over the extended reals: the same sum. -/
theorem matmulPlain_zero_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    FloatOps.matmul (plainDims A K B wf) prec l r (constant (F := Ideal) ⟨2, ![A, B]⟩ .f32 0x00000000#32) (ix2 i j)
      = ∑ k : Fin K, l (ix2 i k) * r (ix2 k j) := by
  rw [Ideal.matmul_constant_zero_apply]
  exact contraction_eq A K B wf l r i j

end Cert.LibContractPlain

end
-- ==== Proof.Region0.lean ====
/-
  The first kernel region: the node table projected through the upper half of the neighbour weight.

  The region walks the 50000 rows of the node table in 25 blocks of 2000 rows. At each block it multiplies the
  block by the whole 128 x 128 weight (a change of float format is the identity on the extended reals, and a
  matrix product into a zero accumulator is the plain sum over the contracted coordinate), so what block t
  writes back is rows 2000 t .. 2000 t + 1999 of ONE array: entry (n, j) is the sum over k of
  table (n, k) * weight (k, j). The 25 blocks tile the array, so that array is what the region leaves.
-/
import proofs.«165110_j11897059410189_2_alg».proof.Proof.Gen.KernelIdeal.Frame
import proofs.«165110_j11897059410189_2_alg».proof.Proof.LibContractPlain
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Project

open Cert.KernelIdeal Cert.KernelIdeal.Gen Idealize.ShloMosaic Idealize.ShloMosaic.TcCoe Idealize.SL.Sem
open Idealize.ShloMosaic.ValueIdx
open Idealize.ShloMosaic.Pipeline (Dat)

theorem origin : (![0, 0] : Fin 2 → Nat) = fun _ => 0 := funext fun a => by fin_cases a <;> rfl

/-- The projected table: entry (n, j) is the sum over k of table (n, k) * weight (k, j). -/
def proj (a : S50000x128.Idx → EReal) (w : S128x128.Idx → EReal) : S50000x128.Idx → EReal :=
  fun i => ∑ k : Fin 128, a (ix2 (i 0) k) * w (ix2 k (i 1))

/-- The body's arithmetic on one block, read at row p and column q of the block: the format changes are the
    identity and the product into a zero accumulator is the sum over the contracted coordinate. -/
theorem pay_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  rw [shapeCast_self]
  exact Cert.LibContractPlain.matmulPlain_zero_apply (φ₁ := .bf16) (φ₂ := .bf16) 2000 128 128
    dot_S2000x128_S128x128_S2000x128_1_0_0_1_n_n_wf none (truncf .bf16 x0 bitsLt_bf16_f32) (truncf .bf16 x1 bitsLt_bf16_f32) p q

/-- One block against the whole array: if the block of the table holds rows b * 2000 .. of the table and the
    weight block is the weight, the body's result at an entry of the block is the projected table at the
    corresponding entry of the array. -/
theorem pay_block (x0 : Vec Ideal S2000x128 .f32) (x1 : Vec Ideal S128x128 .f32)
    (a : S50000x128.Idx → EReal) (w : S128x128.Idx → EReal) (p : Fin 2000) (q : Fin 128) (i : S50000x128.Idx)
    (h0 : ∀ k : Fin 128, x0 (ix2 p k) = a (ix2 (i 0) k))
    (h1 : ∀ k : Fin 128, x1 (ix2 k q) = w (ix2 k (i 1))) :
    k0_pay1 (F := Ideal) x0 x1 (ix2 p q) = proj a w i := by
  rw [pay_apply]
  unfold proj
  exact Finset.sum_congr rfl fun k _ => by rw [h0 k, h1 k]

section Region
variable (V : (c : Dev nD) → (b : Ref sig .tc) → Buf (Elt Ideal) ((c : Thread nD τ).loc b))

/-- The printed index maps over the 25 points: the table's and the result's block index is the point, the
    weight's block is always the whole weight. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the projected table of the arrays as the region finds them. -/
theorem flushed_eq (c : Dev nD) (t : Fin cfg0.N) :
    (dat0 V c).flushed 2 t = ((cfg0.win 2).blk t).view.read (Elt Ideal) (proj (V c main_arg0) (V c main_v0)) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x128) origin]
  obtain ⟨e0, e1, e2, e3, e4, e5⟩ := idx_facts t
  funext j
  obtain ⟨p, q, rfl⟩ : ∃ (p : Fin 2000) (q : Fin 128), j = ix2 p q := ⟨j 0, j 1, eq_ix2 j⟩
  refine pay_block (iblk0 V c 0 t) (iblk0 V c 1 t) (V c main_arg0) (V c main_v0) p q (((cfg0.win 2).blk t).view.emb (ix2 p q)) ?_ ?_
  · intro k
    show V c main_arg0 (((cfg0.win 0).blk t).view.emb (ix2 p k)) = V c main_arg0 _
    refine congrArg _ ?_
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  · intro k
    show V c main_v0 (((cfg0.win 1).blk t).view.emb (ix2 k q)) = V c main_v0 _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the array is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v3).slice (win0_2.rect t)).set ↔ _
  rw [View.set_slice_whole, Rect.mem_set_unit]
  exact Iff.rfl

/-- The 25 blocks of 2000 rows tile the 50000 rows: row n lies in block n / 2000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  refine ⟨(⟨(i 0).val / 2000, by show _ < 25; omega⟩ : Fin cfg0.N), flush0_2 _, ?_⟩
  rw [mem_blk]
  obtain ⟨e0, e1, e2, e3, e4, e5⟩ := idx_facts ⟨(i 0).val / 2000, by show _ < 25; omega⟩
  intro a
  match a with
  | ⟨0, _⟩ => show win0_2.index _ (0 : Fin 2) * 2000 ≤ (i 0).val ∧ (i 0).val < win0_2.index _ (0 : Fin 2) * 2000 + 2000; rw [e4]; show (i 0).val / 2000 * 2000 ≤ _ ∧ _ < (i 0).val / 2000 * 2000 + 2000; omega
  | ⟨1, _⟩ => show win0_2.index _ (1 : Fin 2) * 128 ≤ (i 1).val ∧ (i 1).val < win0_2.index _ (1 : Fin 2) * 128 + 128; rw [e5]; omega

/-- What the region leaves in its result array: the projected table of the arrays as the region finds them. -/
theorem final (c : Dev nD) : (dat0 V c).arrAt 2 cfg0.N = proj (V c main_arg0) (V c main_v0) :=
  (dat0 V c).arrAt_eq_of_cover 2 (proj (V c main_arg0) (V c main_v0)) (fun t _ => flushed_eq V c t) cover

end Region

end Cert.KernelIdeal.Project

end
-- ==== Proof.Region1.lean ====
/-
  The second kernel region: the edge message.

  The region walks the 800000 edges in 100 blocks of 8000 rows. At each block it adds, entry by entry, the block of
  the gathered projection, the block of edge features times the whole 64 x 128 combined weight (a change of float
  format is the identity on the extended reals, and a matrix product into a zero accumulator is the plain sum over
  the contracted coordinate) and the one-row bias broadcast down the rows, and takes the maximum with zero. So what
  block t writes back is rows 8000 t .. 8000 t + 7999 of ONE array: entry (e, j) is
  max ((g (e, j) + sum over k of ef (e, k) * wc (k, j)) + b (0, j)) 0. The 100 blocks tile the array, so that
  array is what the region leaves.
-/
import proofs.«165110_j11897059410189_2_alg».proof.Proof.Gen.KernelIdeal.Frame
import proofs.«165110_j11897059410189_2_alg».proof.Proof.LibContractPlain
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.EdgeMsg

open Cert.KernelIdeal Cert.KernelIdeal.Gen Idealize.ShloMosaic Idealize.ShloMosaic.TcCoe Idealize.SL.Sem
open Idealize.ShloMosaic.ValueIdx
open Idealize.ShloMosaic.Pipeline (Dat)

theorem origin : (![0, 0] : Fin 2 → Nat) = fun _ => 0 := funext fun a => by fin_cases a <;> rfl

/-- The edge message: entry (e, j) is the maximum with zero of the gathered projection at (e, j), plus the sum over
    k of edge features (e, k) * combined weight (k, j), plus the bias at (0, j). -/
def msg (g : S800000x128.Idx → EReal) (ef : S800000x64.Idx → EReal) (wc : S64x128.Idx → EReal) (b : S1x128.Idx → EReal) : S800000x128.Idx → EReal :=
  fun i => max ((g (ix2 (i 0) (i 1)) + ∑ k : Fin 64, ef (ix2 (i 0) k) * wc (ix2 k (i 1))) + b (ix2 (0 : Fin 1) (i 1))) (Ideal.ofBits .f32 0x00000000#32)

/-- The one-row bias broadcast down the 8000 rows, read at row p and column q: the bias at (0, q). -/
theorem bias_apply (x3 : S1x128.Idx → EReal) (p : Fin 8000) (q : Fin 128) :
    broadcastTo S8000x128 x3 broadcasts_S1x128_S8000x128 (ix2 p q) = x3 (ix2 (0 : Fin 1) q) :=
  broadcastTo_apply x3 broadcasts_S1x128_S8000x128 (ix2 p q) (ix2 (0 : Fin 1) q) (fun a => match a with
    | ⟨0, _⟩ => by show (0 : Nat) = if (1 : Nat) = 1 then 0 else _; rw [if_pos rfl]
    | ⟨1, _⟩ => by show q.val = if (128 : Nat) = 1 then 0 else _; rw [if_neg (by decide)]; rfl)

/-- The body's arithmetic on one block, read at row p and column q of the block: the format changes are the
    identity, the product into a zero accumulator is the sum over the contracted coordinate, and the broadcast
    bias is the bias at column q. -/
theorem pay_apply (x0 : Vec Ideal S8000x128 .bf16) (x1 : Vec Ideal S8000x64 .f32) (x2 : Vec Ideal S64x128 .f32)
    (x3 : Vec Ideal S1x128 .f32) (p : Fin 8000) (q : Fin 128) :
    k1_pay1 (F := Ideal) x0 x1 x2 x3 (ix2 p q)
      = max ((x0 (ix2 p q) + ∑ k : Fin 64, x1 (ix2 p k) * x2 (ix2 k q)) + x3 (ix2 (0 : Fin 1) q))
          (Ideal.ofBits .f32 0x00000000#32) := by
  unfold k1_pay1
  simp only [shapeCast_self]
  have hm := Cert.LibContractPlain.matmulPlain_zero_apply (φ₁ := .bf16) (φ₂ := .bf16) 8000 64 128
    dot_S8000x64_S64x128_S8000x128_1_0_0_1_n_n_wf none (truncf .bf16 x1 bitsLt_bf16_f32) (truncf .bf16 x2 bitsLt_bf16_f32) p q
  have hb := bias_apply x3 p q
  show max ((x0 (ix2 p q)
        + FloatOps.matmul dot_S8000x64_S64x128_S8000x128_1_0_0_1_n_n none (truncf .bf16 x1 bitsLt_bf16_f32)
            (truncf .bf16 x2 bitsLt_bf16_f32) (constant (F := Ideal) S8000x128 .f32 0x00000000#32) (ix2 p q))
        + broadcastTo S8000x128 x3 broadcasts_S1x128_S8000x128 (ix2 p q)) (Ideal.ofBits .f32 0x00000000#32) = _
  rw [hb]
  refine congrArg (fun z => max ((x0 (ix2 p q) + z) + x3 (ix2 (0 : Fin 1) q)) (Ideal.ofBits .f32 0x00000000#32)) ?_
  exact hm

/-- One block against the whole arrays: if the block of the gathered projection and the block of edge features
    hold the rows of their arrays that the entry i names, the weight block is the weight and the bias block is the
    bias, the body's result at an entry of the block is the edge message at the entry i of the array. -/
theorem pay_block (x0 : Vec Ideal S8000x128 .bf16) (x1 : Vec Ideal S8000x64 .f32) (x2 : Vec Ideal S64x128 .f32)
    (x3 : Vec Ideal S1x128 .f32)
    (g : S800000x128.Idx → EReal) (ef : S800000x64.Idx → EReal) (wc : S64x128.Idx → EReal) (b : S1x128.Idx → EReal)
    (p : Fin 8000) (q : Fin 128) (i : S800000x128.Idx)
    (h0 : x0 (ix2 p q) = g (ix2 (i 0) (i 1)))
    (h1 : ∀ k : Fin 64, x1 (ix2 p k) = ef (ix2 (i 0) k))
    (h2 : ∀ k : Fin 64, x2 (ix2 k q) = wc (ix2 k (i 1)))
    (h3 : x3 (ix2 (0 : Fin 1) q) = b (ix2 (0 : Fin 1) (i 1))) :
    k1_pay1 (F := Ideal) x0 x1 x2 x3 (ix2 p q) = msg g ef wc b i := by
  have hs : ∑ k : Fin 64, x1 (ix2 p k) * x2 (ix2 k q) = ∑ k : Fin 64, ef (ix2 (i 0) k) * wc (ix2 k (i 1)) :=
    Finset.sum_congr rfl fun k _ => by rw [h1 k, h2 k]
  rw [pay_apply, h0, h3, hs]
  rfl

section Region
variable (V : (c : Dev nD) → (b : Ref sig .tc) → Buf (Elt Ideal) ((c : Thread nD τ).loc b))

/-- The printed index maps over the 100 points: the gathered projection's, the edge features' and the result's
    block index is the point, the weight's and the bias's block is always the whole array. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the edge message of the arrays as the region finds them. -/
theorem flushed_eq (c : Dev nD) (t : Fin cfg1.N) :
    (dat1 V c).flushed 4 t = ((cfg1.win 4).blk t).view.read (Elt Ideal)
      (msg (V c main_v10) (V c main_arg1) (V c main_v2) (V c main_v11)) := by
  show (cfg1.win 4).cut (grid1.coords t) ((dat1 V c).after 4 t) = _
  rw [after1_4]
  unfold out1_4
  rw [View.canon_unit_zero origin]
  simp only [View.ld_unit_zero (S := S8000x128) origin, View.ld_unit_zero (S := S8000x64) origin,
    View.ld_unit_zero (S := S64x128) origin, View.ld_unit_zero (S := S1x128) origin]
  obtain ⟨e0, e1, e2, e3, e4, e5, e6, e7, e8, e9⟩ := idx_facts t
  funext j
  obtain ⟨p, q, rfl⟩ : ∃ (p : Fin 8000) (q : Fin 128), j = ix2 p q := ⟨j 0, j 1, eq_ix2 j⟩
  refine pay_block (iblk1 V c 0 t) (iblk1 V c 1 t) (iblk1 V c 2 t) (iblk1 V c 3 t)
    (V c main_v10) (V c main_arg1) (V c main_v2) (V c main_v11) p q (((cfg1.win 4).blk t).view.emb (ix2 p q)) ?_ ?_ ?_ ?_
  · show V c main_v10 (((cfg1.win 0).blk t).view.emb (ix2 p q)) = V c main_v10 _
    refine congrArg _ ?_
    funext a; apply Fin.ext
    match a with
    | ⟨0, _⟩ => show win1_0.index t (0 : Fin 2) * 8000 + 1 * p.val = win1_4.index t (0 : Fin 2) * 8000 + 1 * p.val; omega
    | ⟨1, _⟩ => show win1_0.index t (1 : Fin 2) * 128 + 1 * q.val = win1_4.index t (1 : Fin 2) * 128 + 1 * q.val; omega
  · intro k
    show V c main_arg1 (((cfg1.win 1).blk t).view.emb (ix2 p k)) = V c main_arg1 _
    refine congrArg _ ?_
    funext a; apply Fin.ext
    match a with
    | ⟨0, _⟩ => show win1_1.index t (0 : Fin 2) * 8000 + 1 * p.val = win1_4.index t (0 : Fin 2) * 8000 + 1 * p.val; omega
    | ⟨1, _⟩ => show win1_1.index t (1 : Fin 2) * 64 + 1 * k.val = k.val; omega
  · intro k
    show V c main_v2 (((cfg1.win 2).blk t).view.emb (ix2 k q)) = V c main_v2 _
    refine congrArg _ ?_
    funext a; apply Fin.ext
    match a with
    | ⟨0, _⟩ => show win1_2.index t (0 : Fin 2) * 64 + 1 * k.val = k.val; omega
    | ⟨1, _⟩ => show win1_2.index t (1 : Fin 2) * 128 + 1 * q.val = win1_4.index t (1 : Fin 2) * 128 + 1 * q.val; omega
  · show V c main_v11 (((cfg1.win 3).blk t).view.emb (ix2 (0 : Fin 1) q)) = V c main_v11 _
    refine congrArg _ ?_
    funext a; apply Fin.ext
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega

/-- An index of the array is in point t's block iff each coordinate is in the block's range on its axis. -/
theorem mem_blk (t : Fin cfg1.N) (i : S800000x128.Idx) :
    i ∈ ((cfg1.win 4).blk t).view.set ↔ ∀ a : Fin 2, win1_4.index t a * S8000x128.size a ≤ (i a).val ∧ (i a).val < win1_4.index t a * S8000x128.size a + S8000x128.size a := by
  show i ∈ ((View.whole main_v12).slice (win1_4.rect t)).set ↔ _
  rw [View.set_slice_whole, Rect.mem_set_unit]
  exact Iff.rfl

/-- The 100 blocks of 8000 rows tile the 800000 rows: row e lies in block e / 8000. -/
theorem cover (i : S800000x128.Idx) :
    ∃ t : Fin cfg1.N, (cfg1.win 4).flush t = true ∧ i ∈ ((cfg1.win 4).blk t).view.set := by
  have hi0 : (i 0).val < 800000 := (i 0).isLt
  have hi1 : (i 1).val < 128 := (i 1).isLt
  refine ⟨(⟨(i 0).val / 8000, by show _ < 100; omega⟩ : Fin cfg1.N), flush1_4 _, ?_⟩
  rw [mem_blk]
  obtain ⟨e0, e1, e2, e3, e4, e5, e6, e7, e8, e9⟩ := idx_facts ⟨(i 0).val / 8000, by show _ < 100; omega⟩
  intro a
  match a with
  | ⟨0, _⟩ => show win1_4.index _ (0 : Fin 2) * 8000 ≤ (i 0).val ∧ (i 0).val < win1_4.index _ (0 : Fin 2) * 8000 + 8000; rw [e8]; show (i 0).val / 8000 * 8000 ≤ _ ∧ _ < (i 0).val / 8000 * 8000 + 8000; omega
  | ⟨1, _⟩ => show win1_4.index _ (1 : Fin 2) * 128 ≤ (i 1).val ∧ (i 1).val < win1_4.index _ (1 : Fin 2) * 128 + 128; rw [e9]; omega

/-- What the region leaves in its result array: the edge message of the arrays as the region finds them. -/
theorem final (c : Dev nD) :
    (dat1 V c).arrAt 4 cfg1.N = msg (V c main_v10) (V c main_arg1) (V c main_v2) (V c main_v11) :=
  (dat1 V c).arrAt_eq_of_cover 4 (msg (V c main_v10) (V c main_arg1) (V c main_v2) (V c main_v11))
    (fun t _ => flushed_eq V c t) cover

end Region

end Cert.KernelIdeal.EdgeMsg

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.Region2.lean ====
/-
  The third kernel region: the node combination.

  The region walks the 50000 rows of the node table in 10 blocks of 5000 rows. At each block it divides the
  block of neighbour sums, entry by entry, by the row's neighbour count raised to at least one, adds the block
  of the node table multiplied by the whole 128 x 128 weight (a change of float format is the identity on the
  extended reals, and a matrix product into a zero accumulator is the plain sum over the contracted coordinate),
  and adds the bias row. So what block t writes back is rows 5000 t .. 5000 t + 4999 of ONE array: entry (n, j) is
  sum (n, j) / max (count n) 1 + (the sum over k of table (n, k) * weight (k, j)) + bias j.
  The 10 blocks tile the array, so that array is what the region leaves.
-/
import proofs.«165110_j11897059410189_2_alg».proof.Proof.Gen.KernelIdeal.Frame
import proofs.«165110_j11897059410189_2_alg».proof.Proof.LibContractPlain
import proofs.«165110_j11897059410189_2_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Combine

open Cert.KernelIdeal Cert.KernelIdeal.Gen Idealize.ShloMosaic Idealize.ShloMosaic.TcCoe Idealize.SL.Sem
open Idealize.ShloMosaic.ValueIdx
open Idealize.ShloMosaic.Pipeline (Dat)

theorem origin : (![0, 0] : Fin 2 → Nat) = fun _ => 0 := funext fun a => by fin_cases a <;> rfl

/-- The combined table: entry (n, j) is sum (n, j) divided by the larger of count n and one, plus the sum over k
    of table (n, k) * weight (k, j), plus bias j. -/
def combine (nf : S50000x128.Idx → EReal) (summ : S50000x128.Idx → EReal) (cnt : S50000x1.Idx → EReal)
    (ws : S128x128.Idx → EReal) (bs : S1x128.Idx → EReal) : S50000x128.Idx → EReal :=
  fun i => (Ideal.div (summ (ix2 (i 0) (i 1))) (max (cnt (ix2 (i 0) (0 : Fin 1))) (Ideal.ofBits .f32 0x3F800000#32))
    + ∑ k : Fin 128, nf (ix2 (i 0) k) * ws (ix2 k (i 1))) + bs (ix2 (0 : Fin 1) (i 1))

/-- The body's arithmetic on one block, read at row p and column q of the block: the identity casts and the
    format changes drop out, the one-column count is read at its row, the bias row at its column, and the product
    into a zero accumulator is the sum over the contracted coordinate. -/
theorem pay_apply (x0 : Vec Ideal S5000x128 .f32) (x1 : Vec Ideal S128x128 .f32) (x2 : Vec Ideal S5000x1 .f32)
    (x3 : Vec Ideal S5000x128 .f32) (x4 : Vec Ideal S1x128 .f32) (p : Fin 5000) (q : Fin 128) :
    k2_pay1 (F := Ideal) x0 x1 x2 x3 x4 (ix2 p q)
      = (Ideal.div (x3 (ix2 p q)) (max (x2 (ix2 p (0 : Fin 1))) (Ideal.ofBits .f32 0x3F800000#32))
          + ∑ k : Fin 128, x0 (ix2 p k) * x1 (ix2 k q)) + x4 (ix2 (0 : Fin 1) q) := by
  unfold k2_pay1
  simp only [shapeCast_self]
  refine congrArg₂ (· + ·) (congrArg₂ (· + ·) (congrArg₂ Ideal.div rfl ?_) ?_) ?_
  · exact (Cert.Attn.Layout.broadcastTo_a1_ab_apply _ broadcasts_S5000x1_S5000x128 p q).trans rfl
  · exact Cert.LibContractPlain.matmulPlain_zero_apply (φ₁ := .bf16) (φ₂ := .bf16) 5000 128 128
      dot_S5000x128_S128x128_S5000x128_1_0_0_1_n_n_wf none (truncf .bf16 x0 bitsLt_bf16_f32) (truncf .bf16 x1 bitsLt_bf16_f32) p q
  · exact broadcastTo_1b_ab_apply x4 broadcasts_S1x128_S5000x128 p q

/-- One block against the whole arrays: if the blocks hold the corresponding rows of the table, the sums and the
    counts, and the weight and bias blocks are the weight and the bias, the body's result at an entry of the block
    is the combined table at the corresponding entry of the array. -/
theorem pay_block (x0 : Vec Ideal S5000x128 .f32) (x1 : Vec Ideal S128x128 .f32) (x2 : Vec Ideal S5000x1 .f32)
    (x3 : Vec Ideal S5000x128 .f32) (x4 : Vec Ideal S1x128 .f32)
    (nf : S50000x128.Idx → EReal) (summ : S50000x128.Idx → EReal) (cnt : S50000x1.Idx → EReal)
    (ws : S128x128.Idx → EReal) (bs : S1x128.Idx → EReal) (p : Fin 5000) (q : Fin 128) (i : S50000x128.Idx)
    (h0 : ∀ k : Fin 128, x0 (ix2 p k) = nf (ix2 (i 0) k))
    (h1 : ∀ k : Fin 128, x1 (ix2 k q) = ws (ix2 k (i 1)))
    (h2 : x2 (ix2 p (0 : Fin 1)) = cnt (ix2 (i 0) (0 : Fin 1)))
    (h3 : x3 (ix2 p q) = summ (ix2 (i 0) (i 1)))
    (h4 : x4 (ix2 (0 : Fin 1) q) = bs (ix2 (0 : Fin 1) (i 1))) :
    k2_pay1 (F := Ideal) x0 x1 x2 x3 x4 (ix2 p q) = combine nf summ cnt ws bs i := by
  have hs : ∑ k : Fin 128, x0 (ix2 p k) * x1 (ix2 k q) = ∑ k : Fin 128, nf (ix2 (i 0) k) * ws (ix2 k (i 1)) :=
    Finset.sum_congr rfl fun k _ => by rw [h0 k, h1 k]
  rw [pay_apply, h2, h3, h4, hs]
  rfl

section Region
variable (V : (c : Dev nD) → (b : Ref sig .tc) → Buf (Elt Ideal) ((c : Thread nD τ).loc b))

/-- The printed index maps over the 10 points: the block index of the table, the sums, the counts and the result
    is the point; the weight's and the bias's block is always the whole array. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the combined table of the arrays as the region finds them. -/
theorem flushed_eq (c : Dev nD) (t : Fin cfg2.N) :
    (dat2 V c).flushed 5 t = ((cfg2.win 5).blk t).view.read (Elt Ideal)
      (combine (V c main_arg0) (V c main_v15) (V c main_v19) (V c main_arg7) (V c main_v20)) := by
  show (cfg2.win 5).cut (grid2.coords t) ((dat2 V c).after 5 t) = _
  rw [after2_5]
  unfold out2_5
  rw [View.canon_unit_zero origin]
  simp only [View.ld_unit_zero (S := S5000x128) origin, View.ld_unit_zero (S := S128x128) origin,
    View.ld_unit_zero (S := S5000x1) origin, View.ld_unit_zero (S := S1x128) origin]
  obtain ⟨e0, e1, e2, e3, e4, e5, e6, e7, e8, e9, e10, e11⟩ := idx_facts t
  funext j
  obtain ⟨p, q, rfl⟩ : ∃ (p : Fin 5000) (q : Fin 128), j = ix2 p q := ⟨j 0, j 1, eq_ix2 j⟩
  refine pay_block (iblk2 V c 0 t) (iblk2 V c 3 t) (iblk2 V c 2 t) (iblk2 V c 1 t) (iblk2 V c 4 t)
    (V c main_arg0) (V c main_v15) (V c main_v19) (V c main_arg7) (V c main_v20) p q
    (((cfg2.win 5).blk t).view.emb (ix2 p q)) ?_ ?_ ?_ ?_ ?_
  · intro k
    show V c main_arg0 (((cfg2.win 0).blk t).view.emb (ix2 p k)) = V c main_arg0 _
    refine congrArg _ ?_
    funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  · intro k
    show V c main_arg7 (((cfg2.win 3).blk t).view.emb (ix2 k q)) = V c main_arg7 _
    refine congrArg _ ?_
    funext a; apply Fin.ext
    match a with
    | ⟨0, _⟩ => show win2_3.index t (0 : Fin 2) * 128 + 1 * k.val = k.val; omega
    | ⟨1, _⟩ => show win2_3.index t (1 : Fin 2) * 128 + 1 * q.val = win2_5.index t (1 : Fin 2) * 128 + 1 * q.val; omega
  · show V c main_v19 (((cfg2.win 2).blk t).view.emb (ix2 p (0 : Fin 1))) = V c main_v19 _
    refine congrArg _ ?_
    funext a; apply Fin.ext
    match a with
    | ⟨0, _⟩ => show win2_2.index t (0 : Fin 2) * 5000 + 1 * p.val = win2_5.index t (0 : Fin 2) * 5000 + 1 * p.val; omega
    | ⟨1, _⟩ => show win2_2.index t (1 : Fin 2) * 1 + 1 * 0 = 0; omega
  · show V c main_v15 (((cfg2.win 1).blk t).view.emb (ix2 p q)) = V c main_v15 _
    refine congrArg _ ?_
    funext a; apply Fin.ext
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * q.val = win2_5.index t (1 : Fin 2) * 128 + 1 * q.val; omega
  · show V c main_v20 (((cfg2.win 4).blk t).view.emb (ix2 (0 : Fin 1) q)) = V c main_v20 _
    refine congrArg _ ?_
    funext a; apply Fin.ext
    match a with
    | ⟨0, _⟩ => show win2_4.index t (0 : Fin 2) * 1 + 1 * 0 = 0; omega
    | ⟨1, _⟩ => show win2_4.index t (1 : Fin 2) * 128 + 1 * q.val = win2_5.index t (1 : Fin 2) * 128 + 1 * q.val; omega

/-- An index of the array is in point t's block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v21).slice (win2_5.rect t)).set ↔ _
  rw [View.set_slice_whole, Rect.mem_set_unit]
  exact Iff.rfl

/-- The 10 blocks of 5000 rows tile the 50000 rows: row n lies in block n / 5000. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  refine ⟨(⟨(i 0).val / 5000, by show _ < 10; omega⟩ : Fin cfg2.N), flush2_5 _, ?_⟩
  rw [mem_blk]
  obtain ⟨e0, e1, e2, e3, e4, e5, e6, e7, e8, e9, e10, e11⟩ := idx_facts ⟨(i 0).val / 5000, by show _ < 10; omega⟩
  intro a
  match a with
  | ⟨0, _⟩ => show win2_5.index _ (0 : Fin 2) * 5000 ≤ (i 0).val ∧ (i 0).val < win2_5.index _ (0 : Fin 2) * 5000 + 5000; rw [e10]; show (i 0).val / 5000 * 5000 ≤ _ ∧ _ < (i 0).val / 5000 * 5000 + 5000; omega
  | ⟨1, _⟩ => show win2_5.index _ (1 : Fin 2) * 128 ≤ (i 1).val ∧ (i 1).val < win2_5.index _ (1 : Fin 2) * 128 + 128; rw [e11]; omega

/-- What the region leaves in its result array: the combined table of the arrays as the region finds them. -/
theorem final (c : Dev nD) : (dat2 V c).arrAt 5 cfg2.N
    = combine (V c main_arg0) (V c main_v15) (V c main_v19) (V c main_arg7) (V c main_v20) :=
  (dat2 V c).arrAt_eq_of_cover 5 (combine (V c main_arg0) (V c main_v15) (V c main_v19) (V c main_arg7) (V c main_v20))
    (fun t _ => flushed_eq V c t) cover

end Region

end Cert.KernelIdeal.Combine

end
-- ==== Proof.KernelRun.lean ====
/-
  The whole run of the kernel program with its result named.

  The program is three kernel regions among stretches of host operations. Every weakly fair execution ends with
  each buffer at the contents obtained by folding through the program: a host stretch's operations applied to the
  contents before it, and a region's arrays at what its blocks' write-backs leave. Read at the result buffer, that
  is what the last region leaves in its output array; read at an argument, it is the argument as launched.
-/
import proofs.«165110_j11897059410189_2_alg».proof.Proof.Gen.KernelIdeal.Frame

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer holding what
    the last region's write-backs leave in its output array (from the contents that region is entered with), and
    every argument array as launched. -/
theorem run_named : θ_run defs (onTc (τ := τ) (main (F := F))) ⟨m, fun _ => 0, ρ⟩ (fun r => ∀ c : Dev nD,
      r.2.mem ((c.tc : Thread nD τ).loc main_v21) = (dat2 (V5 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v21 (by decide))).trans (W6_arr m ρ c 5),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.Whole

end
-- ==== Proof.KernelFold.lean ====
/-
  The kernel program's host stretches, read one buffer at a time.

  Between the three kernel regions the program slices the neighbour weight in two, folds the edge weight into its
  lower half, normalises the source indices and gathers the projected rows, scatter-adds the edge messages and a
  column of ones by destination, and reshapes the two biases to one row. Each of these results is written here as
  its operations applied to the contents the stretch starts from, and every argument array is followed back through
  the stretches and regions that do not write it to its contents at launch.
-/
import proofs.«165110_j11897059410189_2_alg».proof.Proof.Gen.KernelIdeal.Frame
import Idealize.ShloMosaic.Lib.StableHlo.Run
import Idealize.ShloMosaic.PureOps.Ideal.Laws

noncomputable section

namespace Cert.KernelIdeal.Whole

open Cert.KernelIdeal Cert.KernelIdeal.Gen Idealize.ShloMosaic Idealize.ShloMosaic.TcCoe Idealize.SL.Sem
open Idealize.ShloMosaic.StableHlo

/-- The source indices as the gather takes them: a negative index shifted up by the number of nodes, the rest
    as given, laid out as one column. -/
def srcCol (x2 : IVec S800000 32) : IVec S800000x1 32 :=
  broadcastInDim S800000x1 ![0] bcast_S800000_S800000x1_0
    (select (cmpi .slt x2 (broadcastInDim S800000 ![] bcast_S_S800000 (constantI S_ 32 0#32)))
      (addi x2 (broadcastInDim S800000 ![] bcast_S_S800000 (constantI S_ 32 50000#32))) x2)

/-- The edge messages summed by destination node, from zero. -/
def ksum (M : FVec Ideal S800000x128 .f32) (x3 : IVec S800000 32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 x3) M

/-- The number of edges arriving at each node: a column of ones summed by destination node, from zero. -/
def kcnt (x3 : IVec S800000 32) : FVec Ideal S50000x1 .f32 :=
  Host.scatterAdd (F := Ideal) scatter_S50000x1_S800000x1_S800000x1_1_0_0_1
    (broadcastInDim S50000x1 ![] bcast_S_S50000x1 (constant (F := Ideal) S_ .f32 0x00000000#32))
    (broadcastInDim S800000x1 ![0] bcast_S800000_S800000x1_0 x3)
    (broadcastInDim S800000x1 ![] bcast_S_S800000x1 (constant (F := Ideal) S_ .f32 0x3F800000#32))

/-- The edge weight folded into the lower half of the neighbour weight. -/
def wfold (x4 : FVec Ideal S64x128 .f32) (x5 : FVec Ideal S256x128 .f32) : FVec Ideal S64x128 .f32 :=
  Host.dotGeneral (F := Ideal) dot_S64x128_S128x128_S64x128_1_0_0_1_n_n none x4
    (extractStridedSlice S128x128 ![128, 0] x5 slices_S256x128_S128x128_128_0)

/-- The upper half of the neighbour weight. -/
def wtop (x5 : FVec Ideal S256x128 .f32) : FVec Ideal S128x128 .f32 :=
  extractStridedSlice S128x128 ![0, 0] x5 slices_S256x128_S128x128_0_0

variable (m : (ℓ : Loc nD τ sig) → Buf (Elt Ideal) ℓ) (ρ : Dev nD → PrngReg) (c : Dev nD)

/-! ## An argument is as launched at every boundary the program does not write it before -/

theorem w1_arg0 : W1 m ρ c (Proc.devRef .tc main_arg0) = m ((c.tc : Thread nD τ).loc main_arg0) := by
  show StableHlo.after hostOps0 (W0 m ρ c) (Proc.devRef .tc main_arg0) = _
  dsimp only [hostOps0]
  after_results <;> rfl

theorem w1_arg1 : W1 m ρ c (Proc.devRef .tc main_arg1) = m ((c.tc : Thread nD τ).loc main_arg1) := by
  show StableHlo.after hostOps0 (W0 m ρ c) (Proc.devRef .tc main_arg1) = _
  dsimp only [hostOps0]
  after_results <;> rfl

theorem w1_arg2 : W1 m ρ c (Proc.devRef .tc main_arg2) = m ((c.tc : Thread nD τ).loc main_arg2) := by
  show StableHlo.after hostOps0 (W0 m ρ c) (Proc.devRef .tc main_arg2) = _
  dsimp only [hostOps0]
  after_results <;> rfl

theorem w1_arg3 : W1 m ρ c (Proc.devRef .tc main_arg3) = m ((c.tc : Thread nD τ).loc main_arg3) := by
  show StableHlo.after hostOps0 (W0 m ρ c) (Proc.devRef .tc main_arg3) = _
  dsimp only [hostOps0]
  after_results <;> rfl

theorem w1_arg4 : W1 m ρ c (Proc.devRef .tc main_arg4) = m ((c.tc : Thread nD τ).loc main_arg4) := by
  show StableHlo.after hostOps0 (W0 m ρ c) (Proc.devRef .tc main_arg4) = _
  dsimp only [hostOps0]
  after_results <;> rfl

theorem w1_arg5 : W1 m ρ c (Proc.devRef .tc main_arg5) = m ((c.tc : Thread nD τ).loc main_arg5) := by
  show StableHlo.after hostOps0 (W0 m ρ c) (Proc.devRef .tc main_arg5) = _
  dsimp only [hostOps0]
  after_results <;> rfl

theorem w1_arg6 : W1 m ρ c (Proc.devRef .tc main_arg6) = m ((c.tc : Thread nD τ).loc main_arg6) := by
  show StableHlo.after hostOps0 (W0 m ρ c) (Proc.devRef .tc main_arg6) = _
  dsimp only [hostOps0]
  after_results <;> rfl

theorem w1_arg8 : W1 m ρ c (Proc.devRef .tc main_arg8) = m ((c.tc : Thread nD τ).loc main_arg8) := by
  show StableHlo.after hostOps0 (W0 m ρ c) (Proc.devRef .tc main_arg8) = _
  dsimp only [hostOps0]
  after_results <;> rfl

theorem w2_arg1 : W2 m ρ c (Proc.devRef .tc main_arg1) = m ((c.tc : Thread nD τ).loc main_arg1) :=
  (W2_of_ne m ρ c main_arg1 (by decide)).trans (w1_arg1 m ρ c)

theorem w2_arg2 : W2 m ρ c (Proc.devRef .tc main_arg2) = m ((c.tc : Thread nD τ).loc main_arg2) :=
  (W2_of_ne m ρ c main_arg2 (by decide)).trans (w1_arg2 m ρ c)

theorem w2_arg3 : W2 m ρ c (Proc.devRef .tc main_arg3) = m ((c.tc : Thread nD τ).loc main_arg3) :=
  (W2_of_ne m ρ c main_arg3 (by decide)).trans (w1_arg3 m ρ c)

theorem w2_arg6 : W2 m ρ c (Proc.devRef .tc main_arg6) = m ((c.tc : Thread nD τ).loc main_arg6) :=
  (W2_of_ne m ρ c main_arg6 (by decide)).trans (w1_arg6 m ρ c)

theorem w2_arg8 : W2 m ρ c (Proc.devRef .tc main_arg8) = m ((c.tc : Thread nD τ).loc main_arg8) :=
  (W2_of_ne m ρ c main_arg8 (by decide)).trans (w1_arg8 m ρ c)

theorem w3_arg3 : W3 m ρ c (Proc.devRef .tc main_arg3) = m ((c.tc : Thread nD τ).loc main_arg3) := by
  refine Eq.trans ?_ (w2_arg3 m ρ c)
  show StableHlo.after hostOps1 (W2 m ρ c) (Proc.devRef .tc main_arg3) = _
  dsimp only [hostOps1]
  after_results <;> rfl

theorem w4_arg3 : W4 m ρ c (Proc.devRef .tc main_arg3) = m ((c.tc : Thread nD τ).loc main_arg3) :=
  (W4_of_ne m ρ c main_arg3 (by decide)).trans (w3_arg3 m ρ c)

theorem w3_arg8 : W3 m ρ c (Proc.devRef .tc main_arg8) = m ((c.tc : Thread nD τ).loc main_arg8) := by
  refine Eq.trans ?_ (w2_arg8 m ρ c)
  show StableHlo.after hostOps1 (W2 m ρ c) (Proc.devRef .tc main_arg8) = _
  dsimp only [hostOps1]
  after_results <;> rfl

theorem w4_arg8 : W4 m ρ c (Proc.devRef .tc main_arg8) = m ((c.tc : Thread nD τ).loc main_arg8) :=
  (W4_of_ne m ρ c main_arg8 (by decide)).trans (w3_arg8 m ρ c)

/-! ## What the first region is entered with -/

theorem v1_arg0 : V1 m ρ c main_arg0 = m ((c.tc : Thread nD τ).loc main_arg0) := w1_arg0 m ρ c

theorem v1_v0 : V1 m ρ c main_v0 = wtop (m ((c.tc : Thread nD τ).loc main_arg5)) := by
  show StableHlo.after hostOps0 (W0 m ρ c) (Proc.devRef .tc main_v0) = _
  dsimp only [hostOps0]
  after_results <;> rfl

/-! ## What the second region is entered with -/

theorem w1_v2 : W1 m ρ c (Proc.devRef .tc main_v2) = wfold (m ((c.tc : Thread nD τ).loc main_arg4)) (m ((c.tc : Thread nD τ).loc main_arg5)) := by
  show StableHlo.after hostOps0 (W0 m ρ c) (Proc.devRef .tc main_v2) = _
  dsimp only [hostOps0]
  after_results <;> rfl

theorem v3_v2 : V3 m ρ c main_v2 = wfold (m ((c.tc : Thread nD τ).loc main_arg4)) (m ((c.tc : Thread nD τ).loc main_arg5)) := by
  refine Eq.trans ?_ ((W2_of_ne m ρ c main_v2 (by decide)).trans (w1_v2 m ρ c))
  show StableHlo.after hostOps1 (W2 m ρ c) (Proc.devRef .tc main_v2) = _
  dsimp only [hostOps1]
  after_results <;> rfl

theorem v3_arg1 : V3 m ρ c main_arg1 = m ((c.tc : Thread nD τ).loc main_arg1) := by
  refine Eq.trans ?_ (w2_arg1 m ρ c)
  show StableHlo.after hostOps1 (W2 m ρ c) (Proc.devRef .tc main_arg1) = _
  dsimp only [hostOps1]
  after_results <;> rfl

theorem v3_v11 : V3 m ρ c main_v11 = shapeCast S1x128 (m ((c.tc : Thread nD τ).loc main_arg6)) shapeCasts_S128_S1x128 := by
  rw [← w2_arg6 m ρ c]
  show StableHlo.after hostOps1 (W2 m ρ c) (Proc.devRef .tc main_v11) = _
  dsimp only [hostOps1]
  after_results <;> rfl

theorem v3_v10 : V3 m ρ c main_v10
    = Host.gather gather_S50000x128_S800000x1_S800000x128_1_0_n_n_0_1_1128 (W2 m ρ c (Proc.devRef .tc main_v3)) (srcCol (m ((c.tc : Thread nD τ).loc main_arg2))) := by
  rw [← w2_arg2 m ρ c]
  unfold srcCol
  show StableHlo.after hostOps1 (W2 m ρ c) (Proc.devRef .tc main_v10) = _
  dsimp only [hostOps1]
  after_results <;> rfl

/-! ## What the third region is entered with -/

theorem v5_arg0 : V5 m ρ c main_arg0 = m ((c.tc : Thread nD τ).loc main_arg0) :=
  ((W6_arr m ρ c 0).trans (((dat2 (V5 m ρ) c).arrAt_in 0 rfl _).trans (A_eq2 (V5 m ρ) c 0))).symm.trans (W6_main_arg0 m ρ c)

theorem v5_arg7 : V5 m ρ c main_arg7 = m ((c.tc : Thread nD τ).loc main_arg7) :=
  ((W6_arr m ρ c 3).trans (((dat2 (V5 m ρ) c).arrAt_in 3 rfl _).trans (A_eq2 (V5 m ρ) c 3))).symm.trans (W6_main_arg7 m ρ c)

theorem v5_v15 : V5 m ρ c main_v15 = ksum (W4 m ρ c (Proc.devRef .tc main_v12)) (m ((c.tc : Thread nD τ).loc main_arg3)) := by
  rw [← w4_arg3 m ρ c]
  unfold ksum
  show StableHlo.after hostOps2 (W4 m ρ c) (Proc.devRef .tc main_v15) = _
  dsimp only [hostOps2]
  after_results <;> rfl

theorem v5_v19 : V5 m ρ c main_v19 = kcnt (m ((c.tc : Thread nD τ).loc main_arg3)) := by
  rw [← w4_arg3 m ρ c]
  unfold kcnt
  show StableHlo.after hostOps2 (W4 m ρ c) (Proc.devRef .tc main_v19) = _
  dsimp only [hostOps2]
  after_results <;> rfl

theorem v5_v20 : V5 m ρ c main_v20 = shapeCast S1x128 (m ((c.tc : Thread nD τ).loc main_arg8)) shapeCasts_S128_S1x128 := by
  rw [← w4_arg8 m ρ c]
  show StableHlo.after hostOps2 (W4 m ρ c) (Proc.devRef .tc main_v20) = _
  dsimp only [hostOps2]
  after_results <;> rfl

end Cert.KernelIdeal.Whole

end
-- ==== Proof.KernelValue.lean ====
/-
  The kernel program's result as one function of its arguments.

  Region by region: the first region leaves the node table projected through the upper half of the neighbour
  weight; the host gathers its rows by source index; the second region adds to each gathered row the edge's
  features times the folded edge weight and the bias, clipped below at zero (the edge message); the host sums the
  messages, and counts the edges, by destination; the third region divides each node's sum by its count (at least
  one), adds the node's own features times the self weight, and the self bias. Chaining what each region leaves
  with what the host stretch after it computes gives the result buffer after the run.
-/
import proofs.«165110_j11897059410189_2_alg».proof.Proof.Region0
import proofs.«165110_j11897059410189_2_alg».proof.Proof.Region1
import proofs.«165110_j11897059410189_2_alg».proof.Proof.Region2
import proofs.«165110_j11897059410189_2_alg».proof.Proof.KernelRun
import proofs.«165110_j11897059410189_2_alg».proof.Proof.KernelFold

noncomputable section

namespace Cert.KernelIdeal.Whole

open Cert.KernelIdeal Cert.KernelIdeal.Gen Idealize.ShloMosaic Idealize.ShloMosaic.TcCoe Idealize.SL.Sem

/-- The edge messages the kernel program computes: the projected node table gathered by source, plus the edge
    features times the folded weight, plus the bias, clipped below at zero. -/
def kmsg (x0 : FVec Ideal S50000x128 .f32) (x1 : FVec Ideal S800000x64 .f32) (x2 : IVec S800000 32)
    (x4 : FVec Ideal S64x128 .f32) (x5 : FVec Ideal S256x128 .f32) (x6 : FVec Ideal S128 .f32) : FVec Ideal S800000x128 .f32 :=
  EdgeMsg.msg (Host.gather gather_S50000x128_S800000x1_S800000x128_1_0_n_n_0_1_1128 (Project.proj x0 (wtop x5)) (srcCol x2))
    x1 (wfold x4 x5) (shapeCast S1x128 x6 shapeCasts_S128_S1x128)

/-- The kernel program's result: each node's summed messages over its edge count (at least one), plus its own
    features times the self weight, plus the self bias. -/
def kout (x0 : FVec Ideal S50000x128 .f32) (x1 : FVec Ideal S800000x64 .f32) (x2 x3 : IVec S800000 32)
    (x4 : FVec Ideal S64x128 .f32) (x5 : FVec Ideal S256x128 .f32) (x6 : FVec Ideal S128 .f32)
    (x7 : FVec Ideal S128x128 .f32) (x8 : FVec Ideal S128 .f32) : FVec Ideal S50000x128 .f32 :=
  Combine.combine x0 (ksum (kmsg x0 x1 x2 x4 x5 x6) x3) (kcnt x3) x7 (shapeCast S1x128 x8 shapeCasts_S128_S1x128)

variable (m : (ℓ : Loc nD τ sig) → Buf (Elt Ideal) ℓ) (ρ : Dev nD → PrngReg) (c : Dev nD)

/-- What the first region leaves: the node table projected through the upper half of the neighbour weight. -/
theorem w2_v3 : W2 m ρ c (Proc.devRef .tc main_v3) = Project.proj (m ((c.tc : Thread nD τ).loc main_arg0)) (wtop (m ((c.tc : Thread nD τ).loc main_arg5))) :=
  (W2_arr m ρ c 2).trans ((Project.final (V1 m ρ) c).trans (by rw [v1_arg0 m ρ c, v1_v0 m ρ c]))

/-- What the second region leaves: the edge messages. -/
theorem w4_v12 : W4 m ρ c (Proc.devRef .tc main_v12) = kmsg (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  refine (W4_arr m ρ c 4).trans ((EdgeMsg.final (V3 m ρ) c).trans ?_)
  rw [v3_v10 m ρ c, v3_arg1 m ρ c, v3_v2 m ρ c, v3_v11 m ρ c, w2_v3 m ρ c]
  rfl

/-- What the third region leaves: the program's result as a function of the arguments at launch. -/
theorem value : (dat2 (V5 m ρ) c).arrAt 5 cfg2.N
    = kout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (Combine.final (V5 m ρ) c).trans ?_
  rw [v5_arg0 m ρ c, v5_v15 m ρ c, v5_v19 m ρ c, v5_arg7 m ρ c, v5_v20 m ρ c, w4_v12 m ρ c]
  rfl

/-- Every weakly fair execution of the kernel program terminates, nothing faulting, with the result buffer at
    that function of the launch arguments and every argument array as launched. -/
theorem run_value : θ_run defs (onTc (τ := τ) (main (F := Ideal))) ⟨m, fun _ => 0, ρ⟩ (fun r => ∀ c : Dev nD,
      r.2.mem ((c.tc : Thread nD τ).loc main_v21)
        = kout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (value m ρ c), (h c).2⟩) (run_named m ρ)

end Cert.KernelIdeal.Whole

end
-- ==== Proof.LibFiniteAssoc.lean ====
/-
  Finite reals inside the extended reals: sums, and the associativity of a triple product.

  A finite sum of reals computed in the extended reals is the real sum (`coe_sum_real`). Hence a triple product
  of arrays whose entries are all reals can be re-associated inside the extended reals (`assoc_fin`):
  the sum over l of (the sum over k of a k * w k l) * v l is the sum over k of a k * (the sum over l of
  w k l * v l). Without finiteness this fails: distributivity does not hold at the infinities. This is the law
  that lets a weight be folded into the next one before a matrix product.
-/
import Mathlib.Data.EReal.Operations
import Mathlib.Algebra.BigOperators.Ring.Finset
import Mathlib.Algebra.BigOperators.Group.Finset.Sigma

noncomputable section

namespace Cert.LibFiniteAssoc

open Finset

/-- A finite sum of coerced reals is the coercion of the real sum. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- Associativity of a triple product of finite reals inside the extended reals:
`∑ l, (∑ k, a k * w k l) * v l = ∑ k, a k * ∑ l, w k l * v l` when every entry is a real. -/
theorem assoc_fin {K L : Nat} (a : Fin K → EReal) (w : Fin K → Fin L → EReal) (v : Fin L → EReal)
    (ha : ∀ k, ∃ r : ℝ, a k = (r : EReal)) (hw : ∀ k l, ∃ r : ℝ, w k l = (r : EReal))
    (hv : ∀ l, ∃ r : ℝ, v l = (r : EReal)) :
    ∑ l : Fin L, (∑ k : Fin K, a k * w k l) * v l = ∑ k : Fin K, a k * ∑ l : Fin L, w k l * v l := by
  choose a' ha' using ha
  choose w' hw' using hw
  choose v' hv' using hv
  obtain rfl : a = fun k => (a' k : EReal) := funext ha'
  obtain rfl : w = fun k l => (w' k l : EReal) := funext fun k => funext fun l => hw' k l
  obtain rfl : v = fun l => (v' l : EReal) := funext hv'
  simp only [← EReal.coe_mul, coe_sum_real]
  congr 1
  simp only [Finset.sum_mul, Finset.mul_sum, mul_assoc]
  exact Finset.sum_comm

end Cert.LibFiniteAssoc

end
-- ==== Proof.FiniteLaw.lean ====
import proofs.«165110_j11897059410189_2_alg».proof.Defs
import proofs.«165110_j11897059410189_2_alg».proof.Proof.LibFiniteAssoc
import Idealize.ShloMosaic.Lib.ReduceAll
import Idealize.ShloMosaic.Lib.ValueIdx
import Idealize.ShloMosaic.PureOps.Ideal.Laws
import Mathlib.Data.EReal.Operations
import Mathlib.Algebra.BigOperators.Ring.Finset
import Mathlib.Algebra.BigOperators.Group.Finset.Sigma

/-!
# The float inputs are reals

The precondition says of every float input that each entry's absolute value is strictly below `+∞`. Over the
extended reals that makes every entry a real, which is what re-associating a triple product asks of its factors.
-/

noncomputable section

namespace Cert.Bridge

open Finset

/-! ## Finiteness from the precondition -/

open Idealize.ShloMosaic Idealize.ShloMosaic.ValueIdx

/-- The shape of rank zero has exactly one index. -/
instance : Subsingleton Cert.Pre_finite_inputs.S_.Idx := ⟨fun a b => funext fun d => d.elim0⟩

/-- An extended real whose absolute value is strictly below `+∞` is a real. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- A float array for which "every `|x| < +∞`" holds has only real entries. -/
theorem real_of_all_abs_lt_top {s : Shape} {axes : List (Fin s.rank)}
    (hr : s.ReducesTo axes Cert.Pre_finite_inputs.S_)
    (hb : Cert.Pre_finite_inputs.S_.BroadcastsInDim s (![] : Fin 0 → Fin s.rank))
    (hu : 0 < Cert.Pre_finite_inputs.S_.numel) (x : FVec Ideal s .f32) (init : IVec Cert.Pre_finite_inputs.S_ 1)
    (e : Host.reduce IntOp.andi
          (cmpf .olt (Host.absf x) (broadcastInDim s ![] hb (constant Cert.Pre_finite_inputs.S_ .f32 0x7F800000#32)))
          init hr hu ix0 = 1#1) (i : s.Idx) : ∃ r : ℝ, x i = (r : EReal) :=
  real_of_abs_lt_top (x i) (Host.reduce_andi_all _ init hr hu ix0 e i)

/-- A conjunction of two one-bit arrays that is 1 at an index has both conjuncts 1 there. -/
theorem andi_at {s : Shape} (x y : IVec s 1) (i : s.Idx) (h : andi x y i = 1#1) : x i = 1#1 ∧ y i = 1#1 :=
  IntOp.andi_eq_one.1 h

/-- Under the precondition, the three float arrays entering the triple product have only real entries. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal)) := by
  have h0 := congrFun (h c) ix0
  dsimp only [Cert.Pre_finite_inputs.fn, Cert.Pre_finite_inputs.fn_part1] at h0
  obtain ⟨h28, -⟩ := andi_at _ _ _ h0
  obtain ⟨h23, -⟩ := andi_at _ _ _ h28
  obtain ⟨h18, -⟩ := andi_at _ _ _ h23
  obtain ⟨h13, h17⟩ := andi_at _ _ _ h18
  obtain ⟨h8, h12⟩ := andi_at _ _ _ h13
  obtain ⟨-, h7⟩ := andi_at _ _ _ h8
  exact ⟨fun i => real_of_all_abs_lt_top _ _ _ _ _ h7 i, fun i => real_of_all_abs_lt_top _ _ _ _ _ h12 i,
    fun i => real_of_all_abs_lt_top _ _ _ _ _ h17 i⟩

end Cert.Bridge
-- ==== Proof.RefRead.lean ====
/-
  The reference program's stages read at an index, at the ideal (extended-real) instance.

  Three facts. First, the row gather (offset_dims [1], collapsed_slice_dims [0], start_index_map [0],
  index_vector_dim 1, slice sizes [1, C]) of a table `x : [N, C]` at start indices `idx : [E, 1]`: result element
  `(e, c)` is `x` at row `idx[e, 0]`, read as a signed integer and clamped into `[0, N − 1]`, and column `c`.
  Second, the edge message `m[e, j]`: the maximum with zero of
  `(∑ₖ x0[row e, k] · x5[k, j] + ∑ₗ (∑ₖ x1[e, k] · x4[k, l]) · x5[128 + l, j]) + x6[j]`.
  Third, the output `out[n, j]`: the scattered sum divided by the clamped count, plus `∑ₖ x0[n, k] · x7[k, j]`, plus
  `x8[j]`; the two scattered arrays stay as the generated module names them.
-/
import proofs.«165110_j11897059410189_2_alg».proof.Proof.Gen.ReferenceIdeal.Read
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Idealize.ShloMosaic.StableHlo

/-- A 32-bit word read as a signed integer and clamped into the row range `[0, 49999]` of a table of 50000 rows:
    negative words go to row 0, words of 50000 or more to row 49999. -/
def clampRow50000 (v : BitVec 32) : Fin 50000 := ⟨min v.toInt.toNat (50000 - 1), by omega⟩

/-- The start-indices index at which result element `(e, c)` of the row gather reads its (one-component) start
    index is `(e, 0)`. -/
theorem gather_siIdx (e : Fin 800000) (c : Fin 128)
    (h : List.idxOf (0 : Fin S50000x128.rank) gather_S50000x128_S800000x1_S800000x128_1_0_n_n_0_1_1128.startIndexMap
      < gather_S50000x128_S800000x1_S800000x128_1_0_n_n_0_1_1128.startIndexMap.length) :
    gather_S50000x128_S800000x1_S800000x128_1_0_n_n_0_1_1128.siIdx (ix2 e c)
      ⟨List.idxOf (0 : Fin S50000x128.rank) gather_S50000x128_S800000x1_S800000x128_1_0_n_n_0_1_1128.startIndexMap, h⟩
      = ix2 e (0 : Fin 1) := by
  funext b; refine Fin.ext ?_
  match b with
  | ⟨0, _⟩ => rfl
  | ⟨1, _⟩ => rfl

/-- THE ROW GATHER READ AT `(e, c)`: the table at row `idx[e, 0]`, read signed and clamped into `[0, 49999]`, and
    column `c`. -/
theorem gather_row_apply {α : Type} (x : S50000x128.Idx → α) (idx : IVec S800000x1 32) (e : Fin 800000) (c : Fin 128) :
    Host.gather gather_S50000x128_S800000x1_S800000x128_1_0_n_n_0_1_1128 x idx (ix2 e c)
      = x (ix2 (clampRow50000 (idx (ix2 e (0 : Fin 1)))) c) := by
  unfold Host.gather
  congr 1
  funext a
  refine Fin.ext ?_
  match a with
  | ⟨0, _⟩ =>
    show gather_S50000x128_S800000x1_S800000x128_1_0_n_n_0_1_1128.start (ix2 e c) idx 0
        + gather_S50000x128_S800000x1_S800000x128_1_0_n_n_0_1_1128.batchCoord (ix2 e c) 0
        + gather_S50000x128_S800000x1_S800000x128_1_0_n_n_0_1_1128.offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S50000x128.rank) ∈ gather_S50000x128_S800000x1_S800000x128_1_0_n_n_0_1_1128.startIndexMap
      from List.mem_singleton.mpr rfl)]
    rw [gather_siIdx e c]
    rfl
  | ⟨1, _⟩ =>
    show gather_S50000x128_S800000x1_S800000x128_1_0_n_n_0_1_1128.start (ix2 e c) idx 1
        + gather_S50000x128_S800000x1_S800000x128_1_0_n_n_0_1_1128.batchCoord (ix2 e c) 1
        + gather_S50000x128_S800000x1_S800000x128_1_0_n_n_0_1_1128.offCoord (ix2 e c) 1 = _
    rw [GatherDims.batchCoord_eq_zero _ _ _ List.not_mem_nil]
    unfold GatherDims.start
    rw [dif_neg (show ¬ (1 : Fin S50000x128.rank) ∈ gather_S50000x128_S800000x1_S800000x128_1_0_n_n_0_1_1128.startIndexMap
      by decide)]
    simp only [Nat.add_zero, Nat.zero_add]
    unfold GatherDims.offCoord
    rw [dif_pos (show (1 : Fin S50000x128.rank) ∈ gather_S50000x128_S800000x1_S800000x128_1_0_n_n_0_1_1128.sKept
      by decide)]
    rfl

/-! ## The edge message -/

section Msg

variable (x0 : (⟨S50000x128, .f32⟩ : BufTy).Contents (Elt Ideal)) (x1 : (⟨S800000x64, .f32⟩ : BufTy).Contents (Elt Ideal))
  (x2 : (⟨S800000, .i32⟩ : BufTy).Contents (Elt Ideal)) (x4 : (⟨S64x128, .f32⟩ : BufTy).Contents (Elt Ideal))
  (x5 : (⟨S256x128, .f32⟩ : BufTy).Contents (Elt Ideal)) (x6 : (⟨S128, .f32⟩ : BufTy).Contents (Elt Ideal))

/-- The gathered node features at `(e, k)`: `x0` at the row the (wrapped) source id of edge `e` names, clamped, and
    column `k`. -/
theorem gathered_apply (e : Fin 800000) (k : Fin 128) :
    Read.val_main_v7 (F := Ideal) x0 x2 (ix2 e k)
      = x0 (ix2 (clampRow50000 (Read.val_main_v6 (F := Ideal) x2 (ix2 e (0 : Fin 1)))) k) :=
  gather_row_apply x0 (Read.val_main_v6 (F := Ideal) x2) e k

/-- The upper half of `x5` at `(k, j)` is `x5[k, j]`. -/
theorem upper_apply (k j : Fin 128) :
    Read.val_main_v8 (F := Ideal) x5 (ix2 k j) = x5 (ix2 ⟨k.val, by omega⟩ j) := by
  rw [Read.val_main_v8_apply]
  congr 1
  funext a
  match a with
  | ⟨0, _⟩ => rfl
  | ⟨1, _⟩ => rfl

/-- The lower half of `x5` at `(l, j)` is `x5[128 + l, j]`. -/
theorem lower_apply (l j : Fin 128) :
    Read.val_main_v10 (F := Ideal) x5 (ix2 l j) = x5 (ix2 ⟨128 + l.val, by omega⟩ j) := by
  rw [Read.val_main_v10_apply]
  congr 1
  funext a
  match a with
  | ⟨0, _⟩ => rfl
  | ⟨1, _⟩ => rfl

/-- The projected edge features at `(e, l)`: `∑ₖ x1[e, k] · x4[k, l]`. -/
theorem edgeProj_apply (e : Fin 800000) (l : Fin 128) :
    Read.val_main_v0 (F := Ideal) x1 x4 (ix2 e l) = ∑ k : Fin 64, x1 (ix2 e k) * x4 (ix2 k l) := by
  rw [Read.val_main_v0_apply]
  refine Finset.sum_congr rfl fun k _ => ?_
  have el : Read.lidx_main_v0 (ix2 e l) k = ix2 e k := by
    funext a
    match a with
    | ⟨0, _⟩ => rfl
    | ⟨1, _⟩ => rfl
  have er : Read.ridx_main_v0 (ix2 e l) k = ix2 k l := by
    funext a
    match a with
    | ⟨0, _⟩ => rfl
    | ⟨1, _⟩ => rfl
  rw [el, er]

/-- THE EDGE MESSAGE AT `(e, j)`: the maximum with zero of the gathered node features times the upper half of `x5`,
    plus the projected edge features times its lower half, plus the bias. -/
theorem refMsg_apply (e : Fin 800000) (j : Fin 128) :
    Read.val_main_v16 (F := Ideal) x0 x1 x2 x4 x5 x6 (ix2 e j)
      = FloatOps.maximumf (F := Ideal)
          (((∑ k : Fin 128, x0 (ix2 (clampRow50000 (Read.val_main_v6 (F := Ideal) x2 (ix2 e (0 : Fin 1)))) k)
                * x5 (ix2 ⟨k.val, by omega⟩ j))
            + (∑ l : Fin 128, (∑ k : Fin 64, x1 (ix2 e k) * x4 (ix2 k l)) * x5 (ix2 ⟨128 + l.val, by omega⟩ j)))
            + x6 (ix1 j))
          (Ideal.ofBits .f32 0x00000000#32) := by
  rw [Read.val_main_v16_apply, Read.val_main_v15_apply, Read.val_main_v12_apply, Read.val_main_v9_apply,
    Read.val_main_v11_apply, Read.val_main_v14_apply, Read.val_main_v13_apply, Read.val_main_call0_v0_apply,
    Read.val_main_call0_cst_apply]
  have h9 : ∀ k : Fin 128,
      Read.val_main_v7 (F := Ideal) x0 x2 (Read.lidx_main_v9 (ix2 e j) k)
          * Read.val_main_v8 (F := Ideal) x5 (Read.ridx_main_v9 (ix2 e j) k)
        = x0 (ix2 (clampRow50000 (Read.val_main_v6 (F := Ideal) x2 (ix2 e (0 : Fin 1)))) k)
          * x5 (ix2 ⟨k.val, by omega⟩ j) := by
    intro k
    have el : Read.lidx_main_v9 (ix2 e j) k = ix2 e k := by
      funext a
      match a with
      | ⟨0, _⟩ => rfl
      | ⟨1, _⟩ => rfl
    have er : Read.ridx_main_v9 (ix2 e j) k = ix2 k j := by
      funext a
      match a with
      | ⟨0, _⟩ => rfl
      | ⟨1, _⟩ => rfl
    rw [el, er, gathered_apply, upper_apply]
  have h11 : ∀ l : Fin 128,
      Read.val_main_v0 (F := Ideal) x1 x4 (Read.lidx_main_v11 (ix2 e j) l)
          * Read.val_main_v10 (F := Ideal) x5 (Read.ridx_main_v11 (ix2 e j) l)
        = (∑ k : Fin 64, x1 (ix2 e k) * x4 (ix2 k l)) * x5 (ix2 ⟨128 + l.val, by omega⟩ j) := by
    intro l
    have el : Read.lidx_main_v11 (ix2 e j) l = ix2 e l := by
      funext a
      match a with
      | ⟨0, _⟩ => rfl
      | ⟨1, _⟩ => rfl
    have er : Read.ridx_main_v11 (ix2 e j) l = ix2 l j := by
      funext a
      match a with
      | ⟨0, _⟩ => rfl
      | ⟨1, _⟩ => rfl
    rw [el, er, edgeProj_apply, lower_apply]
  have e6 : Read.idx_main_v13 (Read.idx_main_v14 (ix2 e j)) = ix1 j := by
    funext a
    match a with
    | ⟨0, _⟩ => rfl
  rw [Finset.sum_congr rfl fun k _ => h9 k, Finset.sum_congr rfl fun l _ => h11 l, e6]
  rfl

end Msg

/-! ## The output -/

section Out

variable (x0 : (⟨S50000x128, .f32⟩ : BufTy).Contents (Elt Ideal)) (x1 : (⟨S800000x64, .f32⟩ : BufTy).Contents (Elt Ideal))
  (x2 x3 : (⟨S800000, .i32⟩ : BufTy).Contents (Elt Ideal)) (x4 : (⟨S64x128, .f32⟩ : BufTy).Contents (Elt Ideal))
  (x5 : (⟨S256x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))

/-- The node features' own projection at `(n, j)`: `∑ₖ x0[n, k] · x7[k, j]`. -/
theorem selfProj_apply (n : Fin 50000) (j : Fin 128) :
    Read.val_main_v28 (F := Ideal) x0 x7 (ix2 n j) = ∑ k : Fin 128, x0 (ix2 n k) * x7 (ix2 k j) := by
  rw [Read.val_main_v28_apply]
  refine Finset.sum_congr rfl fun k _ => ?_
  have el : Read.lidx_main_v28 (ix2 n j) k = ix2 n k := by
    funext a
    match a with
    | ⟨0, _⟩ => rfl
    | ⟨1, _⟩ => rfl
  have er : Read.ridx_main_v28 (ix2 n j) k = ix2 k j := by
    funext a
    match a with
    | ⟨0, _⟩ => rfl
    | ⟨1, _⟩ => rfl
  rw [el, er]

/-- THE OUTPUT AT `(n, j)`: the scattered sum of messages at `(n, j)` divided by the maximum of the scattered count at
    `(n, 0)` and one, plus the node features' own projection, plus the bias. The two scattered arrays are left as the
    generated module names them. -/
theorem refOut_apply (n : Fin 50000) (j : Fin 128) :
    Read.val_main_v32 (F := Ideal) x0 x1 x2 x3 x4 x5 x6 x7 x8 (ix2 n j)
      = (FloatOps.hostDivf (F := Ideal) (Read.val_main_v19 (F := Ideal) x0 x1 x2 x3 x4 x5 x6 (ix2 n j))
            (FloatOps.maximumf (F := Ideal) (Read.val_main_v23 (F := Ideal) x3 (ix2 n (0 : Fin 1)))
              (Ideal.ofBits .f32 0x3F800000#32))
          + ∑ k : Fin 128, x0 (ix2 n k) * x7 (ix2 k j))
        + x8 (ix1 j) := by
  rw [Read.val_main_v32_apply, Read.val_main_v29_apply, Read.val_main_v27_apply, Read.val_main_v26_apply,
    Read.val_main_v25_apply, Read.val_main_v24_apply, Read.val_main_cst_3_apply, Read.val_main_v31_apply,
    Read.val_main_v30_apply, selfProj_apply]
  have e26 : Read.idx_main_v26 (ix2 n j) = ix2 n (0 : Fin 1) := by
    funext a
    match a with
    | ⟨0, _⟩ => rfl
    | ⟨1, _⟩ => rfl
  have e8 : Read.idx_main_v30 (Read.idx_main_v31 (ix2 n j)) = ix1 j := by
    funext a
    match a with
    | ⟨0, _⟩ => rfl
  rw [e26, e8]
  rfl

end Out

end Cert.ReferenceIdeal.RefValue

end
-- ==== Proof.Bridge.lean ====
/-
  The kernel program's value joined to the reference's, as whole arrays, over the extended reals.

  The kernel program projects the node table through the upper half of the neighbour weight BEFORE gathering the
  source rows, and folds the edge weight into the lower half of the neighbour weight BEFORE multiplying by the edge
  features; the reference gathers first and multiplies the edge features by the edge weight first. Entry by entry the
  two agree: a gathered row of a projected table is the projection of the gathered row, and
  sum over k of ef (e, k) * (sum over l of w (k, l) * v (l, j)) = sum over l of (sum over k of ef (e, k) * w (k, l)) * v (l, j)
  whenever every entry is a real number (re-association of a triple product, which may fail at the infinities).
  A bias reshaped to one row and read at (0, j) is the bias at j.
-/
import proofs.«165110_j11897059410189_2_alg».proof.Proof.Region0
import proofs.«165110_j11897059410189_2_alg».proof.Proof.Region1
import proofs.«165110_j11897059410189_2_alg».proof.Proof.Region2
import proofs.«165110_j11897059410189_2_alg».proof.Proof.KernelFold
import proofs.«165110_j11897059410189_2_alg».proof.Proof.RefRead
import proofs.«165110_j11897059410189_2_alg».proof.Proof.FiniteLaw
import proofs.«165110_j11897059410189_2_alg».proof.Proof.LibContractPlain

noncomputable section

open scoped BigOperators

namespace Cert.Bridge

open Idealize.ShloMosaic Idealize.ShloMosaic.ValueIdx
open Cert.ReferenceIdeal.RefValue

/-- A vector of 128 entries reshaped to one row of 128, read at (0, j): the vector at j. -/
theorem row_apply (x : FVec Ideal Cert.KernelIdeal.S128 .f32) (j : Fin 128) :
    shapeCast Cert.KernelIdeal.S1x128 x Cert.KernelIdeal.Gen.shapeCasts_S128_S1x128 (ix2 (0 : Fin 1) j) = x (ix1 j) :=
  shapeCast_apply x Cert.KernelIdeal.Gen.shapeCasts_S128_S1x128 (ix2 (0 : Fin 1) j) (ix1 j) (by
    rw [Shape.rowMajor_val_one, Shape.rowMajor_val_two]
    show j.val = 0 * 128 + j.val
    omega)

/-- The dimension numbers of the fold of the edge weight into the neighbour weight are those of the plain product of a
    64 x 128 by a 128 x 128 matrix. -/
theorem foldDims_eq : Cert.KernelIdeal.dot_S64x128_S128x128_S64x128_1_0_0_1_n_n
    = Cert.LibContractPlain.plainDims 64 128 128 Cert.KernelIdeal.Gen.dot_S64x128_S128x128_S64x128_1_0_0_1_n_n_wf := rfl

section Msg

variable (x0 : FVec Ideal Cert.KernelIdeal.S50000x128 .f32) (x1 : FVec Ideal Cert.KernelIdeal.S800000x64 .f32)
  (x2 : IVec Cert.KernelIdeal.S800000 32) (x4 : FVec Ideal Cert.KernelIdeal.S64x128 .f32)
  (x5 : FVec Ideal Cert.KernelIdeal.S256x128 .f32) (x6 : FVec Ideal Cert.KernelIdeal.S128 .f32)

/-- The source column the kernel program gathers at is the one the reference gathers at. -/
theorem srcCol_eq : Cert.KernelIdeal.Whole.srcCol x2 = Cert.ReferenceIdeal.Read.val_main_v6 (F := Ideal) x2 := rfl

/-- A gathered row of the projected table: entry (e, j) of the kernel program's gather is the sum over k of the node
    table at (row of edge e, k) times the upper half of the neighbour weight at (k, j). -/
theorem gatherProj_apply (e : Fin 800000) (j : Fin 128) :
    Host.gather Cert.KernelIdeal.gather_S50000x128_S800000x1_S800000x128_1_0_n_n_0_1_1128
        (Cert.KernelIdeal.Project.proj x0 (Cert.KernelIdeal.Whole.wtop x5)) (Cert.KernelIdeal.Whole.srcCol x2) (ix2 e j)
      = ∑ k : Fin 128, x0 (ix2 (clampRow50000 (Cert.ReferenceIdeal.Read.val_main_v6 (F := Ideal) x2 (ix2 e (0 : Fin 1)))) k)
          * x5 (ix2 ⟨k.val, by omega⟩ j) := by
  have hg : Host.gather Cert.KernelIdeal.gather_S50000x128_S800000x1_S800000x128_1_0_n_n_0_1_1128
        (Cert.KernelIdeal.Project.proj x0 (Cert.KernelIdeal.Whole.wtop x5)) (Cert.KernelIdeal.Whole.srcCol x2) (ix2 e j)
      = Cert.KernelIdeal.Project.proj x0 (Cert.KernelIdeal.Whole.wtop x5)
          (ix2 (clampRow50000 (Cert.KernelIdeal.Whole.srcCol x2 (ix2 e (0 : Fin 1)))) j) :=
    gather_row_apply (Cert.KernelIdeal.Project.proj x0 (Cert.KernelIdeal.Whole.wtop x5)) (Cert.KernelIdeal.Whole.srcCol x2) e j
  rw [hg, srcCol_eq]
  unfold Cert.KernelIdeal.Project.proj
  refine Finset.sum_congr rfl fun k _ => ?_
  have hu : Cert.KernelIdeal.Whole.wtop x5 (ix2 k j) = x5 (ix2 ⟨k.val, by omega⟩ j) := upper_apply x5 k j
  exact congrArg (fun z => x0 (ix2 (clampRow50000 (Cert.ReferenceIdeal.Read.val_main_v6 (F := Ideal) x2 (ix2 e (0 : Fin 1)))) k) * z) hu

/-- The folded weight at (k, j): the sum over l of the edge weight at (k, l) times the lower half of the neighbour
    weight at (l, j). -/
theorem wfold_apply (k : Fin 64) (j : Fin 128) :
    Cert.KernelIdeal.Whole.wfold x4 x5 (ix2 k j) = ∑ l : Fin 128, x4 (ix2 k l) * x5 (ix2 ⟨128 + l.val, by omega⟩ j) := by
  have hd : Cert.KernelIdeal.Whole.wfold x4 x5 (ix2 k j)
      = ∑ l : Fin 128, x4 (ix2 k l)
          * extractStridedSlice Cert.KernelIdeal.S128x128 ![128, 0] x5 Cert.KernelIdeal.Gen.slices_S256x128_S128x128_128_0 (ix2 l j) := by
    unfold Cert.KernelIdeal.Whole.wfold
    rw [foldDims_eq]
    exact Cert.LibContractPlain.dotPlain_apply (φ₁ := .f32) (φ₂ := .f32) 64 128 128
      Cert.KernelIdeal.Gen.dot_S64x128_S128x128_S64x128_1_0_0_1_n_n_wf none x4 _ k j
  rw [hd]
  refine Finset.sum_congr rfl fun l _ => ?_
  have hl : extractStridedSlice Cert.KernelIdeal.S128x128 ![128, 0] x5 Cert.KernelIdeal.Gen.slices_S256x128_S128x128_128_0 (ix2 l j)
      = x5 (ix2 ⟨128 + l.val, by omega⟩ j) := lower_apply x5 l j
  rw [hl]

/-- THE EDGE MESSAGE, AS WHOLE ARRAYS: the kernel program's edge message of the gathered projection, the edge features,
    the folded weight and the one-row bias is the reference's, when the edge features, the edge weight and the
    neighbour weight have only real entries. -/
theorem msg_eq (h1 : ∀ i, ∃ r : ℝ, x1 i = (r : EReal)) (h4 : ∀ i, ∃ r : ℝ, x4 i = (r : EReal))
    (h5 : ∀ i, ∃ r : ℝ, x5 i = (r : EReal)) :
    Cert.KernelIdeal.EdgeMsg.msg
        (Host.gather Cert.KernelIdeal.gather_S50000x128_S800000x1_S800000x128_1_0_n_n_0_1_1128
          (Cert.KernelIdeal.Project.proj x0 (Cert.KernelIdeal.Whole.wtop x5)) (Cert.KernelIdeal.Whole.srcCol x2))
        x1 (Cert.KernelIdeal.Whole.wfold x4 x5)
        (shapeCast Cert.KernelIdeal.S1x128 x6 Cert.KernelIdeal.Gen.shapeCasts_S128_S1x128)
      = Cert.ReferenceIdeal.Read.val_main_v16 (F := Ideal) x0 x1 x2 x4 x5 x6 := by
  funext i
  obtain ⟨e, j, rfl⟩ : ∃ (e : Fin 800000) (j : Fin 128), i = ix2 e j := ⟨i 0, i 1, eq_ix2 i⟩
  rw [refMsg_apply]
  unfold Cert.KernelIdeal.EdgeMsg.msg
  show max ((Host.gather Cert.KernelIdeal.gather_S50000x128_S800000x1_S800000x128_1_0_n_n_0_1_1128
          (Cert.KernelIdeal.Project.proj x0 (Cert.KernelIdeal.Whole.wtop x5)) (Cert.KernelIdeal.Whole.srcCol x2) (ix2 e j)
        + ∑ k : Fin 64, x1 (ix2 e k) * Cert.KernelIdeal.Whole.wfold x4 x5 (ix2 k j))
        + shapeCast Cert.KernelIdeal.S1x128 x6 Cert.KernelIdeal.Gen.shapeCasts_S128_S1x128 (ix2 (0 : Fin 1) j))
      (Ideal.ofBits .f32 0x00000000#32) = _
  have hs : ∑ k : Fin 64, x1 (ix2 e k) * Cert.KernelIdeal.Whole.wfold x4 x5 (ix2 k j)
      = ∑ l : Fin 128, (∑ k : Fin 64, x1 (ix2 e k) * x4 (ix2 k l)) * x5 (ix2 ⟨128 + l.val, by omega⟩ j) := by
    rw [Finset.sum_congr rfl fun k _ => congrArg (fun z => x1 (ix2 e k) * z) (wfold_apply x4 x5 k j)]
    exact (Cert.LibFiniteAssoc.assoc_fin (fun k => x1 (ix2 e k)) (fun k l => x4 (ix2 k l)) (fun l => x5 (ix2 ⟨128 + l.val, by omega⟩ j))
      (fun k => h1 _) (fun k l => h4 _) (fun l => h5 _)).symm
  rw [gatherProj_apply, hs, row_apply]
  rfl

end Msg

/-! ## The output -/

section Out

variable (x0 : FVec Ideal Cert.KernelIdeal.S50000x128 .f32) (x1 : FVec Ideal Cert.KernelIdeal.S800000x64 .f32)
  (x2 x3 : IVec Cert.KernelIdeal.S800000 32) (x4 : FVec Ideal Cert.KernelIdeal.S64x128 .f32)
  (x5 : FVec Ideal Cert.KernelIdeal.S256x128 .f32) (x6 : FVec Ideal Cert.KernelIdeal.S128 .f32)
  (x7 : FVec Ideal Cert.KernelIdeal.S128x128 .f32) (x8 : FVec Ideal Cert.KernelIdeal.S128 .f32)

/-- The kernel program's sum of the reference's edge messages by destination node is the reference's. -/
theorem ksum_eq : Cert.KernelIdeal.Whole.ksum (Cert.ReferenceIdeal.Read.val_main_v16 (F := Ideal) x0 x1 x2 x4 x5 x6) x3
    = Cert.ReferenceIdeal.Read.val_main_v19 (F := Ideal) x0 x1 x2 x3 x4 x5 x6 := rfl

/-- The kernel program's count of edges by destination node is the reference's. -/
theorem kcnt_eq : Cert.KernelIdeal.Whole.kcnt x3 = Cert.ReferenceIdeal.Read.val_main_v23 (F := Ideal) x3 := rfl

/-- THE OUTPUT, AS WHOLE ARRAYS: the kernel program's combination of the node table, the kernel program's edge messages
    summed by destination, the count of edges by destination, the node weight and the one-row bias is the reference's
    output, when the edge features, the edge weight and the neighbour weight have only real entries. -/
theorem out_eq (h1 : ∀ i, ∃ r : ℝ, x1 i = (r : EReal)) (h4 : ∀ i, ∃ r : ℝ, x4 i = (r : EReal))
    (h5 : ∀ i, ∃ r : ℝ, x5 i = (r : EReal)) :
    Cert.KernelIdeal.Combine.combine x0
        (Cert.KernelIdeal.Whole.ksum
          (Cert.KernelIdeal.EdgeMsg.msg
            (Host.gather Cert.KernelIdeal.gather_S50000x128_S800000x1_S800000x128_1_0_n_n_0_1_1128
              (Cert.KernelIdeal.Project.proj x0 (Cert.KernelIdeal.Whole.wtop x5)) (Cert.KernelIdeal.Whole.srcCol x2))
            x1 (Cert.KernelIdeal.Whole.wfold x4 x5)
            (shapeCast Cert.KernelIdeal.S1x128 x6 Cert.KernelIdeal.Gen.shapeCasts_S128_S1x128))
          x3)
        (Cert.KernelIdeal.Whole.kcnt x3) x7
        (shapeCast Cert.KernelIdeal.S1x128 x8 Cert.KernelIdeal.Gen.shapeCasts_S128_S1x128)
      = Cert.ReferenceIdeal.Read.val_main_v32 (F := Ideal) x0 x1 x2 x3 x4 x5 x6 x7 x8 := by
  rw [msg_eq x0 x1 x2 x4 x5 x6 h1 h4 h5, ksum_eq, kcnt_eq]
  funext i
  obtain ⟨n, j, rfl⟩ : ∃ (n : Fin 50000) (j : Fin 128), i = ix2 n j := ⟨i 0, i 1, eq_ix2 i⟩
  rw [refOut_apply]
  unfold Cert.KernelIdeal.Combine.combine
  show (Ideal.div (Cert.ReferenceIdeal.Read.val_main_v19 (F := Ideal) x0 x1 x2 x3 x4 x5 x6 (ix2 n j))
          (max (Cert.ReferenceIdeal.Read.val_main_v23 (F := Ideal) x3 (ix2 n (0 : Fin 1))) (Ideal.ofBits .f32 0x3F800000#32))
        + ∑ k : Fin 128, x0 (ix2 n k) * x7 (ix2 k j))
      + shapeCast Cert.KernelIdeal.S1x128 x8 Cert.KernelIdeal.Gen.shapeCasts_S128_S1x128 (ix2 (0 : Fin 1) j) = _
  rw [row_apply]
  rfl

end Out

end Cert.Bridge

end
-- ==== Proof.lean ====
/-
  A graph layer with edge features, as a three-region kernel program and as plain array code: the two compute the
  same array over the extended reals whenever the float inputs are finite.

  For every edge e from node s(e) to node d(e) the layer forms the message
      m(e) = max (x(s(e)) · A + (f(e) · W) · B + b, 0),
  x the node features, f the edge features, A and B the upper and lower halves of the neighbour weight, W the edge
  weight, b the bias; every node n then receives the sum of the messages arriving at it divided by their number
  (at least one), plus its own features times the self weight, plus the self bias.

  The kernel program differs from the array code in two places only. It multiplies the whole node table by A first
  and gathers rows of the product by source index, where the array code gathers rows of the node table and
  multiplies those: row by row these are the same sum, because both gathers read the same (clamped) row. And it
  folds W into B once, computing f(e) · (W · B): the associativity of a triple product, which over the extended
  reals needs its factors finite — the one place the precondition is used. Everything else (the order of the
  additions, the clip at zero, the two sums by destination, the division, the last two additions) is the same
  operation on the same operands, a change of float format being the identity on the extended reals and a matrix
  product into a zero accumulator the plain sum over the contracted coordinate.

  The kernel program's result is read off its run region by region (each region's output array is one function of
  the arrays the region finds, its blocks tiling the array), the array code's off its run one operation at a time;
  the two functions of the arguments are then compared entry by entry. No operation of the kernel was rewritten in
  idealizing it, so that the idealized kernel is the kernel's idealization needs no argument.
-/
import proofs.«165110_j11897059410189_2_alg».proof.Defs
import proofs.«165110_j11897059410189_2_alg».proof.Proof.Gen.Kernel
import proofs.«165110_j11897059410189_2_alg».proof.Proof.Gen.Kernel.Skeleton
import proofs.«165110_j11897059410189_2_alg».proof.Proof.Gen.Kernel.Launch
import proofs.«165110_j11897059410189_2_alg».proof.Proof.Gen.Kernel.Points
import proofs.«165110_j11897059410189_2_alg».proof.Proof.Gen.Kernel.Frame
import proofs.«165110_j11897059410189_2_alg».proof.Proof.Gen.KernelIdeal
import proofs.«165110_j11897059410189_2_alg».proof.Proof.Gen.KernelIdeal.Skeleton
import proofs.«165110_j11897059410189_2_alg».proof.Proof.Gen.KernelIdeal.Launch
import proofs.«165110_j11897059410189_2_alg».proof.Proof.Gen.KernelIdeal.Points
import proofs.«165110_j11897059410189_2_alg».proof.Proof.Gen.KernelIdeal.Frame
import proofs.«165110_j11897059410189_2_alg».proof.Proof.Gen.ReferenceIdeal
import proofs.«165110_j11897059410189_2_alg».proof.Proof.Gen.Pre_finite_inputs
import proofs.«165110_j11897059410189_2_alg».proof.Proof.Gen.ReferenceIdeal.Run
import proofs.«165110_j11897059410189_2_alg».proof.Proof.Gen.ReferenceIdeal.Read
import proofs.«165110_j11897059410189_2_alg».proof.Proof.KernelValue
import proofs.«165110_j11897059410189_2_alg».proof.Proof.FiniteLaw
import proofs.«165110_j11897059410189_2_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs to the end without a fault and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The array code is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote none of its operations. -/
theorem preserves : Cert.preserves_Kernel_KernelIdeal := trivial

/-- From memories that agree on the arguments, with the float arguments finite, both programs run to the end and
    leave the same array: the kernel program's result as a function of its arguments is the array code's. -/
theorem algebraic : Cert.algebraic_KernelIdeal_ReferenceIdeal := by
  intro m ρ m' ρ' hpre hagree
  refine ⟨_, Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  obtain ⟨h1, h4, h5⟩ := Cert.Bridge.finite_of_pre m hpre c
  rw [Cert.ReferenceIdeal.Read.val_main_v32_eq, a0, a1, a2, a3, a4, a5, a6, a7, a8]
  exact (Cert.Bridge.out_eq _ _ _ _ _ _ _ _ _ h1 h4 h5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
